-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x288x512 : Shape := ⟨4, ![64, 3, 288, 512]⟩
abbrev S_ : Shape := ⟨0, ![]⟩

class Facts : Prop where
  bcast_S_S64x3x288x512 : S_.BroadcastsInDim S64x3x288x512 (![] : Fin 0 → Fin S64x3x288x512.rank)
  reducesTo_S64x3x288x512_S_d0_1_2_3 : S64x3x288x512.ReducesTo [0, 1, 2, 3] S_
  h_S_ : 0 < S_.numel

variable [Facts]

def fn {F : FTy → Type} [FloatOps F] (main_arg0 : FVec F S64x3x288x512 .f32) (main_arg1 : IVec S64x3x288x512 32) : IVec S_ 1 :=
  let main_v0 : FVec F S64x3x288x512 .f32 := Host.absf main_arg0
  let main_cst : FVec F S_ .f32 := constant S_ .f32 0x7F800000#32
  let main_v1 : FVec F S64x3x288x512 .f32 := broadcastInDim S64x3x288x512 ![] bcast_S_S64x3x288x512 main_cst
  let main_v2 : IVec S64x3x288x512 1 := cmpf .olt main_v0 main_v1
  let main_c : IVec S_ 1 := constantI S_ 1 1#1
  let main_v3 : IVec S_ 1 := (fun x v => Host.reduce IntOp.andi x v reducesTo_S64x3x288x512_S_d0_1_2_3 h_S_) main_v2 main_c
  main_v3
-- ==== Kernel.lean ====
abbrev S64x3x288x512 : Shape := ⟨4, ![64, 3, 288, 512]⟩
abbrev S55296x512 : Shape := ⟨2, ![55296, 512]⟩
abbrev S16x128 : Shape := ⟨2, ![16, 128]⟩
abbrev S1536x512 : Shape := ⟨2, ![1536, 512]⟩
abbrev S8x128 : Shape := ⟨2, ![8, 128]⟩
abbrev S1x512 : Shape := ⟨2, ![1, 512]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S64x3x288x512, .f32⟩
  | .hbm, ⟨1, _⟩ => ⟨S64x3x288x512, .i32⟩
  | .hbm, ⟨2, _⟩ => ⟨S55296x512, .f32⟩
  | .hbm, ⟨3, _⟩ => ⟨S55296x512, .i32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1536x512, .f32⟩
  | .local _ .vmem, ⟨1, _⟩ => ⟨S1536x512, .f32⟩
  | .local _ .vmem, ⟨2, _⟩ => ⟨S1536x512, .i32⟩
  | .local _ .vmem, ⟨3, _⟩ => ⟨S1536x512, .i32⟩
  | .local _ .vmem, ⟨4, _⟩ => ⟨S8x128, .f32⟩
  | .local _ .vmem, ⟨5, _⟩ => ⟨S8x128, .f32⟩
  | .local _ .vmem, ⟨6, _⟩ => ⟨S1x512, .f32⟩
  | _, _ => ⟨S64x3x288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 18], ![false, false]⟩

def k0_cond2 (i : grid0.Coords) : BitVec 1 :=
  let arg1 : BitVec 32 := BitVec.ofNat 32 (i 1).val
  let c17_i32 : BitVec 32 := 17#32
  let v33 : BitVec 1 := Scalar.cmpi .eq arg1 c17_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x3x288x512_S55296x512 : S64x3x288x512.ShapeCasts S55296x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  reduces_S1536x512_S512 : S1536x512.Reduces [0] S512
  shapeCasts_S512_S1x512 : S512.ShapeCasts S1x512
  reduces_S1x512_S1 : S1x512.Reduces [1] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x512.size a ≤ S55296x512.size a
  hwx0_0 : ∀ i : grid0.Coords, EltTy.bits .f32 = 32 ∨ (Rect.block (s := S55296x512) S1536x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S55296x512.size a
  hwx0_1 : ∀ i : grid0.Coords, EltTy.bits .i32 = 32 ∨ (Rect.block (s := S55296x512) S1536x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S1536x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1536x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x3x288x512 : Shape := ⟨4, ![64, 3, 288, 512]⟩
abbrev S28311552 : Shape := ⟨1, ![28311552]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S64x3x288x512, .f32⟩
  | .hbm, ⟨1, _⟩ => ⟨S64x3x288x512, .i32⟩
  | .hbm, ⟨2, _⟩ => ⟨S28311552, .f32⟩
  | .hbm, ⟨3, _⟩ => ⟨S28311552, .i32⟩
  | .hbm, ⟨4, _⟩ => ⟨S_, .i32⟩
  | .hbm, ⟨5, _⟩ => ⟨S28311552, .i32⟩
  | .hbm, ⟨6, _⟩ => ⟨S28311552, .i1⟩
  | .hbm, ⟨7, _⟩ => ⟨S_, .f32⟩
  | .hbm, ⟨8, _⟩ => ⟨S28311552, .f32⟩
  | .hbm, ⟨9, _⟩ => ⟨S28311552, .f32⟩
  | .hbm, ⟨10, _⟩ => ⟨S28311552, .f32⟩
  | .hbm, ⟨11, _⟩ => ⟨S28311552, .f32⟩
  | .hbm, ⟨12, _⟩ => ⟨S_, .f32⟩
  | .hbm, ⟨13, _⟩ => ⟨S28311552, .f32⟩
  | .hbm, ⟨14, _⟩ => ⟨S28311552, .f32⟩
  | .hbm, ⟨15, _⟩ => ⟨S28311552, .f32⟩
  | .hbm, ⟨16, _⟩ => ⟨S_, .f32⟩
  | .hbm, ⟨17, _⟩ => ⟨S28311552, .f32⟩
  | .hbm, ⟨18, _⟩ => ⟨S28311552, .f32⟩
  | .hbm, ⟨19, _⟩ => ⟨S_, .f32⟩
  | .hbm, ⟨20, _⟩ => ⟨S28311552, .f32⟩
  | .hbm, ⟨21, _⟩ => ⟨S28311552, .f32⟩
  | .hbm, ⟨22, _⟩ => ⟨S28311552, .f32⟩
  | .hbm, ⟨23, _⟩ => ⟨S_, .f32⟩
  | .hbm, ⟨24, _⟩ => ⟨S28311552, .f32⟩
  | .hbm, ⟨25, _⟩ => ⟨S28311552, .f32⟩
  | .hbm, ⟨26, _⟩ => ⟨S_, .f32⟩
  | .hbm, ⟨27, _⟩ => ⟨S28311552, .f32⟩
  | .hbm, ⟨28, _⟩ => ⟨S28311552, .f32⟩
  | .hbm, ⟨29, _⟩ => ⟨S28311552, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S64x3x288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  shapeCasts_S64x3x288x512_S28311552 : S64x3x288x512.ShapeCasts S28311552
  bcast_S_S28311552 : S_.BroadcastsInDim S28311552 (![] : Fin 0 → Fin S28311552.rank)
  reducesTo_S28311552_S_d0 : S28311552.ReducesTo [0] S_
  h_S_ : 0 < S_.numel

variable [Facts₀]

class Facts : Prop extends Facts₀ where

variable [Facts]
-- ==== Proof.Term.lean ====
/-
  The focal-loss term of one element, and the regrouping of the total sum.

  For a probability p and a label y both programs form, per element,
      pt = p if y = 1 else 1 − p,     f = (1 − pt)² · (−log pt · c),     w = f · α if y = 1 else f · (1 − α),
  with c the f32 word nearest 1/ln 10 and α, 1 − α the f32 words nearest 0.9 and 0.1 (the same words on both
  sides, never evaluated).  One program squares 1 − pt by a product and negates the logarithm before scaling it
  (`kterm`); the other raises 1 − pt to the power 2.0 and negates after scaling (`rterm`).  On the extended reals
  (0 − a)·c = −(a·c) always, and x ^ 2 = x · x for every REAL x (it fails at −∞, where the power is −∞ and the
  product +∞): so the two terms agree wherever p is a real number (`kterm_eq_rterm`).

  The mean is the sum of the terms over all 64·3·288·512 elements divided by their number.  Read as a matrix of
  55296 rows of 512 lanes, the sum is taken either in one sweep, or — per half h of the rows — by accumulating,
  over the 18 tiles of 1536 rows of that half, each tile's 512 column sums into a running row, and adding up that
  row's 512 lanes at the end.  Addition on the extended reals is commutative and associative (⊤ + ⊥ = ⊥ included),
  so the two groupings are one number (`total_eq`), with no finiteness of the terms needed.
-/
import Idealize.ShloMosaic.PureOps.Ideal
import Idealize.ShloMosaic.PureOps.Ideal.Laws
import Idealize.ShloMosaic.Lib.ValueIdx

noncomputable section

namespace Cert.Focal

open Idealize.ShloMosaic Idealize.ShloMosaic.ValueIdx

/-! ## The constants -/

/-- The f32 word of 1.0. -/
abbrev one : EReal := Ideal.ofBits .f32 0x3F800000#32
/-- The f32 word of 2.0. -/
abbrev two : EReal := Ideal.ofBits .f32 0x40000000#32
/-- The f32 word of +0.0. -/
abbrev zero : EReal := Ideal.ofBits .f32 0x00000000#32
/-- The f32 word nearest 1 / ln 10. -/
abbrev cLog : EReal := Ideal.ofBits .f32 0x3EDE5BD9#32
/-- The f32 word nearest 0.9. -/
abbrev cPos : EReal := Ideal.ofBits .f32 0x3F666666#32
/-- The f32 word nearest 0.1. -/
abbrev cNeg : EReal := Ideal.ofBits .f32 0x3DCCCCCD#32
/-- The f32 word of 28311552 = 64·3·288·512. -/
abbrev cCount : EReal := Ideal.ofBits .f32 0x4BD80000#32

theorem one_real : one = ((1 : ℝ) : EReal) := by
  simp [one, Ideal.ofBits, Ideal.ieee, -EReal.coe_mul]; norm_num

theorem two_real : two = ((2 : ℝ) : EReal) := by
  simp [two, Ideal.ofBits, Ideal.ieee, -EReal.coe_mul]; norm_num

theorem zero_real : zero = 0 := Ideal.ofBits_zero_f32

/-! ## One element's term, in the two spellings -/

/-- The term with the square a product and the logarithm negated first. -/
def kterm (p : EReal) (y : BitVec 32) : EReal :=
  Scalar.select (IntOp.cmpi .eq y 1#32)
    ((((one - Scalar.select (IntOp.cmpi .eq y 1#32) p (one - p)) * (one - Scalar.select (IntOp.cmpi .eq y 1#32) p (one - p)))
        * ((zero - Ideal.log (Scalar.select (IntOp.cmpi .eq y 1#32) p (one - p))) * cLog)) * cPos)
    ((((one - Scalar.select (IntOp.cmpi .eq y 1#32) p (one - p)) * (one - Scalar.select (IntOp.cmpi .eq y 1#32) p (one - p)))
        * ((zero - Ideal.log (Scalar.select (IntOp.cmpi .eq y 1#32) p (one - p))) * cLog)) * cNeg)

/-- The term with the square a power and the scaled logarithm negated afterwards. -/
def rterm (p : EReal) (y : BitVec 32) : EReal :=
  Scalar.select (IntOp.cmpi .eq y 1#32)
    ((Ideal.pow (one - Scalar.select (IntOp.cmpi .eq y 1#32) p (one - p)) two
        * -(Ideal.log (Scalar.select (IntOp.cmpi .eq y 1#32) p (one - p)) * cLog)) * cPos)
    ((Ideal.pow (one - Scalar.select (IntOp.cmpi .eq y 1#32) p (one - p)) two
        * -(Ideal.log (Scalar.select (IntOp.cmpi .eq y 1#32) p (one - p)) * cLog)) * cNeg)

/-- A real number to the power 2.0 is its product with itself. -/
theorem pow_two_real (a : ℝ) : Ideal.pow (a : EReal) two = (a : EReal) * (a : EReal) := by
  rw [two_real, Ideal.pow_coe_coe, ← EReal.coe_mul]
  congr 1
  show a ^ (2 : ℝ) = a * a
  rw [Real.rpow_two, sq]

/-- Negating before or after the scaling: (0 − a) · c = −(a · c) on every extended real. -/
theorem neg_scale (a c : EReal) : (zero - a) * c = -(a * c) := by
  rw [zero_real, zero_sub, EReal.neg_mul]

/-- Where the probability is a real number the two spellings are one extended real. -/
theorem kterm_eq_rterm (r : ℝ) (y : BitVec 32) : kterm (r : EReal) y = rterm (r : EReal) y := by
  have hsel : ∃ q : ℝ, Scalar.select (IntOp.cmpi .eq y 1#32) (r : EReal) (one - (r : EReal)) = (q : EReal) := by
    unfold Scalar.select
    split
    · exact ⟨r, rfl⟩
    · exact ⟨1 - r, by rw [one_real, ← EReal.coe_sub]⟩
  obtain ⟨q, hq⟩ := hsel
  have hom : one - (q : EReal) = ((1 - q : ℝ) : EReal) := by rw [one_real, ← EReal.coe_sub]
  unfold kterm rterm
  rw [hq, hom, pow_two_real, neg_scale]

/-! ## The element at row R, lane l of the 55296 × 512 reading -/

/-- Row R, lane l of the matrix is entry (R / 864, R / 288 mod 3, R mod 288, l) of the [64, 3, 288, 512] array: the
    same row-major position. -/
abbrev pos4 (R : Fin 55296) (l : Fin 512) : (⟨4, ![64, 3, 288, 512]⟩ : Shape).Idx :=
  ix4 (⟨R.val / 864, by have := R.isLt; omega⟩ : Fin 64) (⟨R.val / 288 % 3, by omega⟩ : Fin 3)
    (⟨R.val % 288, by omega⟩ : Fin 288) l

variable (f : Fin 55296 → Fin 512 → EReal)

/-! ## Two bijections onto the rows and onto the flat positions -/

/-- Row r of tile i of half h. -/
def rowOf (x : Fin 2 × Fin 18 × Fin 1536) : Fin 55296 :=
  ⟨(18 * x.1.val + x.2.1.val) * 1536 + x.2.2.val, by
    have := x.1.isLt; have := x.2.1.isLt; have := x.2.2.isLt; omega⟩

theorem rowOf_bijective : Function.Bijective rowOf := by
  rw [Fintype.bijective_iff_injective_and_card]
  refine ⟨fun a b h => ?_, by simp⟩
  have hv : (18 * a.1.val + a.2.1.val) * 1536 + a.2.2.val = (18 * b.1.val + b.2.1.val) * 1536 + b.2.2.val :=
    congrArg Fin.val h
  have := a.1.isLt; have := a.2.1.isLt; have := a.2.2.isLt
  have := b.1.isLt; have := b.2.1.isLt; have := b.2.2.isLt
  refine Prod.ext (Fin.ext (by omega)) (Prod.ext (Fin.ext (by omega)) (Fin.ext (by omega)))

/-- Lane l of row R, as a flat position. -/
def flatOf (x : Fin 55296 × Fin 512) : Fin 28311552 :=
  ⟨x.1.val * 512 + x.2.val, by have := x.1.isLt; have := x.2.isLt; omega⟩

theorem flatOf_bijective : Function.Bijective flatOf := by
  rw [Fintype.bijective_iff_injective_and_card]
  refine ⟨fun a b h => ?_, by simp⟩
  have hv : a.1.val * 512 + a.2.val = b.1.val * 512 + b.2.val := congrArg Fin.val h
  have := a.2.isLt; have := b.2.isLt
  refine Prod.ext (Fin.ext (by omega)) (Fin.ext (by omega))

/-- A sum over the flat positions is the sum over rows of the sums over lanes. -/
theorem sum_flat (g : Fin 28311552 → EReal) :
    ∑ k, g k = ∑ R : Fin 55296, ∑ l : Fin 512, g (flatOf (R, l)) := by
  rw [← Fintype.sum_prod_type' (f := fun R l => g (flatOf (R, l)))]
  exact (Fintype.sum_bijective flatOf flatOf_bijective _ _ fun _ => rfl).symm

/-! ## The tiled accumulation -/

/-- The term at row R (any natural number: zero past the last row). -/
def cellN (R : ℕ) (l : Fin 512) : EReal := if h : R < 55296 then f ⟨R, h⟩ l else 0

/-- Lane l's column sum over the 1536 rows of tile n. -/
def colN (n : ℕ) (l : Fin 512) : EReal := ∑ r : Fin 1536, cellN f (n * 1536 + r.val) l

/-- The running row after tile n: reset to zero at the first tile of each half (n ≡ 0 mod 18), the tile's column sums
    added at every tile. -/
def accN : ℕ → Fin 512 → EReal
  | 0, l => 0 + colN f 0 l
  | n + 1, l => if (n + 1) % 18 = 0 then 0 + colN f (n + 1) l else accN n l + colN f (n + 1) l

/-- After tile i of half h the running row holds the column sums of tiles 0 … i of that half. -/
theorem accN_run (h : ℕ) (l : Fin 512) : ∀ i : ℕ, i < 18 →
    accN f (18 * h + i) l = ∑ i' : Fin (i + 1), colN f (18 * h + i'.val) l
  | 0, _ => by
    rw [Fin.sum_univ_one]
    show accN f (18 * h + 0) l = colN f (18 * h + 0) l
    rw [Nat.add_zero]
    cases h with
    | zero => show 0 + colN f 0 l = colN f 0 l; rw [zero_add]
    | succ h' =>
      rw [show 18 * (h' + 1) = 18 * h' + 17 + 1 by omega]
      unfold accN
      rw [if_pos (by omega), zero_add]
  | i + 1, hi => by
    rw [Fin.sum_univ_castSucc]
    simp only [Fin.coe_castSucc, Fin.val_last]
    rw [← accN_run h l i (by omega)]
    show accN f (18 * h + i + 1) l = _
    rw [accN, if_neg (by omega)]
    rfl

/-- What half h contributes: the 512 lanes of its running row after its last tile. -/
def halfTotal (h : ℕ) : EReal := ∑ l : Fin 512, accN f (18 * h + 17) l

/-- The sum of all terms is the two halves' contributions. -/
theorem total_eq : ∑ R : Fin 55296, ∑ l : Fin 512, f R l = halfTotal f 0 + halfTotal f 1 := by
  have hhalf : ∀ h : Fin 2, halfTotal f h.val
      = ∑ l : Fin 512, ∑ i : Fin 18, ∑ r : Fin 1536, f (rowOf (h, i, r)) l := by
    intro h
    unfold halfTotal
    refine Finset.sum_congr rfl fun l _ => ?_
    rw [accN_run f h.val l 17 (by omega)]
    refine Finset.sum_congr rfl fun i _ => ?_
    unfold colN
    refine Finset.sum_congr rfl fun r _ => ?_
    unfold cellN
    have hlt : (18 * h.val + i.val) * 1536 + r.val < 55296 := by
      have := h.isLt; have := i.isLt; have := r.isLt; omega
    rw [dif_pos hlt]
    rfl
  rw [Finset.sum_comm]
  have hrows : ∀ l : Fin 512, ∑ R : Fin 55296, f R l
      = ∑ h : Fin 2, ∑ i : Fin 18, ∑ r : Fin 1536, f (rowOf (h, i, r)) l := by
    intro l
    rw [← Fintype.sum_bijective rowOf rowOf_bijective (fun x => f (rowOf x) l) (fun R => f R l) fun _ => rfl,
      Fintype.sum_prod_type]
    refine Finset.sum_congr rfl fun h _ => ?_
    rw [Fintype.sum_prod_type]
  rw [Finset.sum_congr rfl fun l _ => hrows l, Finset.sum_comm, Fin.sum_univ_two]
  exact (congrArg₂ (· + ·) (hhalf 0) (hhalf 1)).symm

/-! ## The mean, and the sum of the 16 × 128 array of partial results -/

/-- The mean of the terms: zero plus their sum over the 55296 rows and 512 lanes, divided by the count's word. -/
def meanOf (term : EReal → BitVec 32 → EReal) (x0 : (⟨4, ![64, 3, 288, 512]⟩ : Shape).Idx → EReal)
    (x1 : (⟨4, ![64, 3, 288, 512]⟩ : Shape).Idx → BitVec 32) : EReal :=
  Ideal.div (zero + ∑ R : Fin 55296, ∑ l : Fin 512, term (x0 (pos4 R l)) (x1 (pos4 R l))) cCount

/-- A 16 × 128 array holding T h at (8h, 0) and zero elsewhere sums to T 0 + T 1. -/
theorem sum_masked (T : ℕ → EReal) :
    ∑ a : Fin 16, ∑ b : Fin 128, (if a.val % 8 = 0 ∧ b.val = 0 then T (a.val / 8) else 0) = T 0 + T 1 := by
  have inner : ∀ a : Fin 16, ∑ b : Fin 128, (if a.val % 8 = 0 ∧ b.val = 0 then T (a.val / 8) else 0)
      = if a.val % 8 = 0 then T (a.val / 8) else 0 := by
    intro a
    rw [Finset.sum_eq_single (0 : Fin 128)]
    · simp
    · intro b _ hb
      rw [if_neg]
      intro h
      exact hb (Fin.ext h.2)
    · intro h
      exact absurd (Finset.mem_univ _) h
  rw [Finset.sum_congr rfl fun a _ => inner a, Finset.sum_eq_add (0 : Fin 16) (8 : Fin 16) (by decide)]
  · rfl
  · intro a _ ha
    rw [if_neg]
    intro h
    have hlt := a.isLt
    rcases ha with ⟨h0, h8⟩
    have hv0 : a.val ≠ 0 := fun e => h0 (Fin.ext e)
    have hv8 : a.val ≠ 8 := fun e => h8 (Fin.ext e)
    omega
  · intro h
    exact absurd (Finset.mem_univ _) h
  · intro h
    exact absurd (Finset.mem_univ _) h

end Cert.Focal

end
-- ==== Proof.LibRank1Sum.lean ====
/-
  A sum over the index set of a rank-1 shape is the sum over its one coordinate.

  An index of the shape `[n]` is a function from the one axis to `Fin n`; `idxEquiv1` reads it at that axis, with inverse the
  constructor `ix1`, and `sum_idx1` re-indexes a finite sum through it (the rank-1 companion of the rank-2 `sum_idx2`).
-/
import Idealize.ShloMosaic.Lib.ValueIdx

namespace Idealize.ShloMosaic.ValueIdx

/-- An index of `[n]` is its one coordinate. -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idealize.ShloMosaic.ValueIdx
-- ==== Proof.Reference.lean ====
/-
  The reference's result, read: the mean of the power-form terms.

  Its last stage divides, by the count's word, zero plus the sum over the 28311552 flat positions of the selected
  weighted term; the term at flat position R·512 + l is the power-form term of the probability and the label at
  entry (R / 864, R / 288 mod 3, R mod 288, l) of the two [64, 3, 288, 512] arrays (the reshape keeps the row-major
  position), and the flat positions are the pairs (row, lane).
-/
import proofs.«177895_j13365938226077_2_alg».proof.Defs
import proofs.«177895_j13365938226077_2_alg».proof.Proof.Gen.ReferenceIdeal.Run
import proofs.«177895_j13365938226077_2_alg».proof.Proof.Gen.ReferenceIdeal.Read
import proofs.«177895_j13365938226077_2_alg».proof.Proof.Term
import proofs.«177895_j13365938226077_2_alg».proof.Proof.LibRank1Sum

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Focal

/-- The 4-d entry under flat position R·512 + l, for the probabilities and for the labels. -/
theorem entry_f (R : Fin 55296) (l : Fin 512) : idx_main_v0 (ix1 (flatOf (R, l))) = pos4 R l := by
  funext a
  apply Fin.ext
  have hR := R.isLt
  have hl := l.isLt
  match a with
  | ⟨0, _⟩ => show (R.val * 512 + l.val) / 442368 = R.val / 864; omega
  | ⟨1, _⟩ => show (R.val * 512 + l.val) / 147456 % 3 = R.val / 288 % 3; omega
  | ⟨2, _⟩ => show (R.val * 512 + l.val) / 512 % 288 = R.val % 288; omega
  | ⟨3, _⟩ => show (R.val * 512 + l.val) % 512 = l.val; omega

theorem entry_i (R : Fin 55296) (l : Fin 512) : idx_main_v1 (ix1 (flatOf (R, l))) = pos4 R l := by
  funext a
  apply Fin.ext
  have hR := R.isLt
  have hl := l.isLt
  match a with
  | ⟨0, _⟩ => show (R.val * 512 + l.val) / 442368 = R.val / 864; omega
  | ⟨1, _⟩ => show (R.val * 512 + l.val) / 147456 % 3 = R.val / 288 % 3; omega
  | ⟨2, _⟩ => show (R.val * 512 + l.val) / 512 % 288 = R.val % 288; omega
  | ⟨3, _⟩ => show (R.val * 512 + l.val) % 512 = l.val; omega

/-- The selected weighted term at a flat position is the power-form term of the entry under it. -/
theorem term_apply (x0 : (⟨S64x3x288x512, .f32⟩ : BufTy).Contents (Elt Ideal)) (x1 : (⟨S64x3x288x512, .i32⟩ : BufTy).Contents (Elt Ideal))
    (R : Fin 55296) (l : Fin 512) :
    val_main_v20 (F := Ideal) x0 x1 (ix1 (flatOf (R, l))) = rterm (x0 (pos4 R l)) (x1 (pos4 R l)) := by
  simp only [val_main_v20_apply, val_main_v17_apply, val_main_v19_apply, val_main_v15_apply, val_main_v14_apply,
    val_main_v12_apply, val_main_v10_apply, val_main_v9_apply, val_main_v7_apply, val_main_v6_apply, val_main_v5_apply,
    val_main_v3_apply, val_main_v0_apply, val_main_v1_apply, val_main_v2_apply, val_main_v4_apply, val_main_v8_apply,
    val_main_v11_apply, val_main_v13_apply, val_main_v16_apply, val_main_v18_apply, val_main_c_apply, val_main_cst_apply,
    val_main_cst_0_apply, val_main_cst_1_apply, val_main_cst_2_apply, val_main_cst_3_apply, val_main_cst_4_apply,
    entry_f, entry_i]
  rfl

/-- The reference's result is the mean of the power-form terms. -/
theorem result_eq (x0 : (⟨S64x3x288x512, .f32⟩ : BufTy).Contents (Elt Ideal)) (x1 : (⟨S64x3x288x512, .i32⟩ : BufTy).Contents (Elt Ideal)) :
    val_main_v22 (F := Ideal) x0 x1 = fun _ => meanOf rterm x0 x1 := by
  funext i
  rw [val_main_v22_apply, val_main_v21_apply, sum_idx1, sum_flat]
  simp only [term_apply]
  rfl

end Cert.ReferenceIdeal.RefValue

end
-- ==== Proof.Pieces.lean ====
/-
  What the body leaves behind at one grid point, as values.

  At every grid point the body adds, lane by lane, the column sums of its 1536 × 512 tile of weighted terms to the running
  row it keeps in scratch (`k0_pay3` of the two input tiles and of the row it finds); at the first tile of each half it
  first stores the zero row (`k0_pay2`) and finds that; at the last tile of each half it also stores, into the output block,
  the mask-selected lane total of the row it has just written (`k0_pay1`).  Read back through the covering stores the run
  found, the scratch row and the output block are exactly those payloads — at any float instance.
-/
import proofs.«177895_j13365938226077_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle tile: the scratch row ends at the row found plus the tile's column sums. -/
theorem scratch_mid (c : Dev nD) (i : grid0.Coords) (a2 : Memref sig .tc .vmem S1536x512 .f32) (h2 : a2.IsWhole)
    (a3 : Memref sig .tc .vmem S1536x512 .i32) (h3 : a3.IsWhole) (a4 : Memref sig .tc .vmem S8x128 .f32) (h4 : a4.IsWhole)
    (a5 : Memref sig .tc .vmem S1x512 .f32) (h5 : a5.IsWhole) (hc0 : ¬cond0_0 i) (hc1 : ¬cond0_1 i)
    (x0 : Vec F S1536x512 .f32) (x1 : Vec F S1536x512 .i32) (xs0 : Vec F S1x512 .f32) :
    sout0_B_0 c i a2 h2 a3 h3 a4 h4 a5 h5 hc0 hc1 x0 x1 xs0 = k0_pay3 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S1536x512) hz,
    View.ld_unit_zero (S := S1x512) hz]

/-- The first tile of a half: the zero row is stored, found again, and the tile's column sums are added to it. -/
theorem scratch_first (c : Dev nD) (i : grid0.Coords) (a2 : Memref sig .tc .vmem S1536x512 .f32) (h2 : a2.IsWhole)
    (a3 : Memref sig .tc .vmem S1536x512 .i32) (h3 : a3.IsWhole) (a4 : Memref sig .tc .vmem S8x128 .f32) (h4 : a4.IsWhole)
    (a5 : Memref sig .tc .vmem S1x512 .f32) (h5 : a5.IsWhole) (hc0 : cond0_0 i) (hc1 : ¬cond0_1 i)
    (x0 : Vec F S1536x512 .f32) (x1 : Vec F S1536x512 .i32) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x512) hz, View.readCov_unit_zero (S := S1x512) _ hz]
  simp only [View.readAt_eq_ld, h2.read_unread, h3.read_unread, View.ld_unit_zero (S := S1536x512) hz,
    View.ld_unit_zero (S := S1x512) hz]

/-- The last tile of a half: the scratch row as at a middle tile, -/
theorem scratch_last (c : Dev nD) (i : grid0.Coords) (a2 : Memref sig .tc .vmem S1536x512 .f32) (h2 : a2.IsWhole)
    (a3 : Memref sig .tc .vmem S1536x512 .i32) (h3 : a3.IsWhole) (a4 : Memref sig .tc .vmem S8x128 .f32) (h4 : a4.IsWhole)
    (a5 : Memref sig .tc .vmem S1x512 .f32) (h5 : a5.IsWhole) (hc0 : ¬cond0_0 i) (hc1 : cond0_1 i)
    (x0 : Vec F S1536x512 .f32) (x1 : Vec F S1536x512 .i32) (xs0 : Vec F S1x512 .f32) :
    sout0_C_0 c i a2 h2 a3 h3 a4 h4 a5 h5 hc0 hc1 x0 x1 xs0 = k0_pay3 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1536x512) hz,
    View.ld_unit_zero (S := S1x512) hz]

/-- and the output block at the masked lane total of that row. -/
theorem block_last (c : Dev nD) (i : grid0.Coords) (a2 : Memref sig .tc .vmem S1536x512 .f32) (h2 : a2.IsWhole)
    (a3 : Memref sig .tc .vmem S1536x512 .i32) (h3 : a3.IsWhole) (a4 : Memref sig .tc .vmem S8x128 .f32) (h4 : a4.IsWhole)
    (a5 : Memref sig .tc .vmem S1x512 .f32) (h5 : a5.IsWhole) (hc0 : ¬cond0_0 i) (hc1 : cond0_1 i)
    (x0 : Vec F S1536x512 .f32) (x1 : Vec F S1536x512 .i32) (xs0 : Vec F S1x512 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz]
  rw [View.readCov_unit_zero (S := S1x512) _ hz]
  simp only [View.readAt_eq_ld, h2.read_unread, h3.read_unread, h5.read_unread, View.ld_unit_zero (S := S1536x512) hz,
    View.ld_unit_zero (S := S1x512) hz]

end Cert.KernelIdeal.Pieces

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.Body.lean ====
/-
  The body's three stored values, read at an entry on the extended reals.

  * the zero row is 0 at every lane;
  * the updated running row at lane l is the row found at lane l plus the sum, over the 1536 rows r of the tile, of
    the weighted term of the tile's probability and label at (r, l);
  * the output block at (a, b) is the sum of the running row's 512 lanes if a = 0 and b = 0, and 0 elsewhere
    (the mask compares the two iotas with zero).
-/
import proofs.«177895_j13365938226077_2_alg».proof.Proof.Gen.KernelIdeal.Skeleton
import proofs.«177895_j13365938226077_2_alg».proof.Proof.Term
import proofs.«177895_j13365938226077_2_alg».proof.Proof.LibColumnSum
import proofs.«177895_j13365938226077_2_alg».proof.Proof.LibKeepdims
import Idealize.ShloMosaic.Lib.ValueLayout
import Idealize.ShloMosaic.Lib.Pipeline.Value

noncomputable section

open Idealize.ShloMosaic Idealize.ShloMosaic.ValueIdx Idealize.ShloMosaic.ValueKeepdims

namespace Cert.KernelIdeal.Body

open Cert.KernelIdeal Cert.KernelIdeal.Gen Cert.Focal

/-- The tile of weighted terms: entry by entry the term of the probability and the label there. -/
def tileTerms (x0 : Vec Ideal S1536x512 .f32) (x1 : Vec Ideal S1536x512 .i32) : FVec Ideal S1536x512 .f32 :=
  fun i => kterm (x0 i) (x1 i)

/-- The zero row. -/
theorem zeroRow_apply (j : S1x512.Idx) : k0_pay2 (F := Ideal) j = 0 := by
  show shapeCast S1x512 (broadcast S1x512 (Scalar.ofBits (F := Ideal) .f32 0x00000000#32)) shapeCasts_S1x512_S1x512 j = 0
  rw [shapeCast_self]
  exact Ideal.ofBits_zero_f32

/-- The updated row is the row found plus the column sums of the tile of terms (the body's pointwise operations are the
    term's, entry by entry). -/
theorem row_eq (x0 : Vec Ideal S1536x512 .f32) (x1 : Vec Ideal S1536x512 .i32) (acc : Vec Ideal S1x512 .f32) :
    k0_pay3 x0 x1 acc
      = shapeCast S1x512 (addf acc (shapeCast S1x512
          (multiReduction .add [0] S512
            (tileTerms (shapeCast S1536x512 x0 shapeCasts_S1536x512_S1536x512) (shapeCast S1536x512 x1 shapeCasts_S1536x512_S1536x512))
            0x00000000#32 reduces_S1536x512_S512 (.inl rfl) rfl) shapeCasts_S512_S1x512)) shapeCasts_S1x512_S1x512 := rfl

/-- The updated running row at lane l. -/
theorem row_apply (x0 : Vec Ideal S1536x512 .f32) (x1 : Vec Ideal S1536x512 .i32) (acc : Vec Ideal S1x512 .f32) (l : Fin 512) :
    k0_pay3 x0 x1 acc (ix2 (0 : Fin 1) l) = acc (ix2 (0 : Fin 1) l) + ∑ r : Fin 1536, kterm (x0 (ix2 r l)) (x1 (ix2 r l)) := by
  rw [row_eq, shapeCast_self, shapeCast_self, shapeCast_self]
  show acc (ix2 (0 : Fin 1) l) + shapeCast S1x512 _ shapeCasts_S512_S1x512 (ix2 (0 : Fin 1) l) = _
  rw [shapeCast_a_1a_apply, colSum_at]
  rfl

/-- The mask's row test and lane test, decided over the block's 8 rows and 128 lanes. -/
theorem rowTest : ∀ a : Fin 8, IntOp.cmpi .eq (BitVec.ofNat 32 a.val) 0#32 = if a.val = 0 then 1#1 else 0#1 := by
  decide +kernel
theorem laneTest : ∀ b : Fin 128, IntOp.cmpi .eq (BitVec.ofNat 32 b.val) 0#32 = if b.val = 0 then 1#1 else 0#1 := by
  decide +kernel

/-- The output block at (a, b). -/
theorem block_apply (v : Vec Ideal S1x512 .f32) (a : Fin 8) (b : Fin 128) :
    k0_pay1 v (ix2 a b) = if a.val = 0 ∧ b.val = 0 then ∑ l : Fin 512, v (ix2 (0 : Fin 1) l) else 0 := by
  have hsum : broadcastTo S8x128 (shapeCast S1x1 (shapeCast S1x1
        (multiReduction (F := Ideal) .add [1] S1 v 0x00000000#32 reduces_S1x512_S1 (.inl rfl) rfl) shapeCasts_S1_S1x1) shapeCasts_S1x1_S1x1)
        broadcasts_S1x1_S8x128 (ix2 a b) = ∑ l : Fin 512, v (ix2 (0 : Fin 1) l) := by
    rw [shapeCast_self]
    refine (broadcastTo_apply _ broadcasts_S1x1_S8x128 (ix2 a b) (ix2 (0 : Fin 1) (0 : Fin 1)) fun ax => ?_).trans ?_
    · match ax with
      | ⟨0, _⟩ => rfl
      | ⟨1, _⟩ => rfl
    · rw [shapeCast_a_a1_apply]
      exact multiReduction_add_row (a := 1) (b := 512) v 0x00000000#32 reduces_S1x512_S1 (.inl rfl) rfl (0 : Fin 1)
  show Scalar.select (IntOp.andi (IntOp.cmpi .eq (iota .tc S8x128 32 [0] iota_S8x128_d0_w32 (ix2 a b)) 0#32)
        (IntOp.cmpi .eq (iota .tc S8x128 32 [1] iota_S8x128_d1_w32 (ix2 a b)) 0#32))
      (broadcastTo S8x128 (shapeCast S1x1 (shapeCast S1x1
        (multiReduction (F := Ideal) .add [1] S1 v 0x00000000#32 reduces_S1x512_S1 (.inl rfl) rfl) shapeCasts_S1_S1x1) shapeCasts_S1x1_S1x1)
        broadcasts_S1x1_S8x128 (ix2 a b))
      (Ideal.ofBits .f32 0x00000000#32) = _
  rw [hsum, iota_single_apply, iota_single_apply, Ideal.ofBits_zero_f32]
  show Scalar.select (IntOp.andi (IntOp.cmpi .eq (BitVec.ofNat 32 a.val) 0#32) (IntOp.cmpi .eq (BitVec.ofNat 32 b.val) 0#32)) _ _ = _
  rw [rowTest a, laneTest b]
  by_cases ha : a.val = 0
  · by_cases hb : b.val = 0
    · rw [if_pos ha, if_pos hb, if_pos (And.intro ha hb)]; rfl
    · rw [if_pos ha, if_neg hb, if_neg (fun h : a.val = 0 ∧ b.val = 0 => hb h.2)]; rfl
  · by_cases hb : b.val = 0
    · rw [if_neg ha, if_pos hb, if_neg (fun h : a.val = 0 ∧ b.val = 0 => ha h.1)]; rfl
    · rw [if_neg ha, if_neg hb, if_neg (fun h : a.val = 0 ∧ b.val = 0 => ha h.1)]; rfl

end Cert.KernelIdeal.Body

end
-- ==== Proof.KValue.lean ====
/-
  What the kernel's run leaves in its result: the mean of the product-form terms.

  Read as 55296 rows of 512 lanes, the two argument arrays are cut into 36 tiles of 1536 rows; grid point n (half
  n / 18, step n mod 18) sees tile n.  After point n the scratch row holds, lane by lane, the column sums of the tiles
  of its half up to n (`scratch_eq`, by induction on the point: the row is reset at the first tile of a half and the
  tile's column sums are added at every tile).  At the last tile of half h the 8 × 128 output block h receives the row's
  lane total at (0, 0) and zeros elsewhere, and is written back; the two blocks tile the 16 × 128 result array
  (`array_eq`).  The host then adds the array's 2048 entries to zero and divides by the count: the two halves'
  totals are the sum of all terms (`Cert.Focal.total_eq`).
-/
import proofs.«177895_j13365938226077_2_alg».proof.Proof.Gen.KernelIdeal.Frame
import proofs.«177895_j13365938226077_2_alg».proof.Proof.Pieces
import proofs.«177895_j13365938226077_2_alg».proof.Proof.Body
import proofs.«177895_j13365938226077_2_alg».proof.Proof.Term
import Idealize.ShloMosaic.Lib.Pipeline.Value
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Body Cert.Focal

variable (m : (ℓ : Loc nD τ sig) → Buf (Elt Ideal) ℓ) (ρ : Dev nD → PrngReg)

/-- The product-form term at row R, lane l of the argument arrays as launched. -/
def cell (c : Dev nD) (R : Fin 55296) (l : Fin 512) : EReal :=
  kterm (m ((c : Thread nD τ).loc main_arg0) (pos4 R l)) (m ((c : Thread nD τ).loc main_arg1) (pos4 R l))

/-! ## The arrays the region finds: the arguments read as 55296 × 512 -/

theorem probs_eq (c : Dev nD) : (V m c main_v0 : S55296x512.Idx → EReal)
    = shapeCast S55296x512 (m ((c : Thread nD τ).loc main_arg0)) shapeCasts_S64x3x288x512_S55296x512 := by
  show StableHlo.after hostOps0 (fun b => m (c, b)) (Proc.devRef .tc main_v0) = _
  after_results
  rfl

theorem labels_eq (c : Dev nD) : (V m c main_v1 : S55296x512.Idx → BitVec 32)
    = shapeCast S55296x512 (m ((c : Thread nD τ).loc main_arg1)) shapeCasts_S64x3x288x512_S55296x512 := by
  show StableHlo.after hostOps0 (fun b => m (c, b)) (Proc.devRef .tc main_v1) = _
  after_results
  rfl

/-- Row R, lane l of the matrix is the argument's entry at the same row-major position. -/
theorem reshape_apply {α : Type} (x : S64x3x288x512.Idx → α) (R : Fin 55296) (l : Fin 512) :
    shapeCast S55296x512 x shapeCasts_S64x3x288x512_S55296x512 (ix2 R l) = x (pos4 R l) := by
  refine shapeCast_apply x shapeCasts_S64x3x288x512_S55296x512 (ix2 R l) (pos4 R l) ?_
  rewrite [Shape.rowMajor_val_four, Shape.rowMajor_val_two]
  have hR := R.isLt
  show ((R.val / 864 * 3 + R.val / 288 % 3) * 288 + R.val % 288) * 512 + l.val = R.val * 512 + l.val
  omega

/-! ## The tiles -/

/-- The printed index maps, decided over the grid: point t fetches tile t of each input and writes block t / 18 of the
    result. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 18 ∧ win0_2.index t (1 : Fin 2) = 0 :=
  (by decide +kernel : ∀ t : Fin grid0.N, _)

theorem row_lt (t : Fin cfg0.N) (r : Fin 1536) : t.val * 1536 + r.val < 55296 := by
  have hN : t.val < 36 := lt_of_lt_of_eq t.isLt (show cfg0.N = 36 from N_0)
  have := r.isLt
  omega

/-- Entry (r, l) of the probabilities' tile at point t is the argument's entry at row t·1536 + r, lane l. -/
theorem probTile_apply (c : Dev nD) (t : Fin cfg0.N) (r : Fin 1536) (l : Fin 512) :
    (iblk m c 0 t : S1536x512.Idx → EReal) (ix2 r l)
      = m ((c : Thread nD τ).loc main_arg0) (pos4 ⟨t.val * 1536 + r.val, row_lt t r⟩ l) := by
  unfold iblk
  rw [View.read_apply]
  show (V m c main_v0 : S55296x512.Idx → EReal) (((cfg0.win 0).blk t).view.emb (ix2 r l)) = _
  have e : ((cfg0.win 0).blk t).view.emb (ix2 r l) = ix2 (⟨t.val * 1536 + r.val, row_lt t r⟩ : Fin 55296) l := by
    funext a
    apply Fin.ext
    obtain ⟨e0, e1, -, -, -, -⟩ := idx_facts t
    match a with
    | ⟨0, _⟩ => show win0_0.index t (0 : Fin 2) * 1536 + 1 * r.val = t.val * 1536 + r.val; rw [e0]; omega
    | ⟨1, _⟩ => show win0_0.index t (1 : Fin 2) * 512 + 1 * l.val = l.val; rw [e1]; omega
  rw [e, probs_eq]
  exact reshape_apply _ _ _

/-- The same for the labels' tile. -/
theorem labelTile_apply (c : Dev nD) (t : Fin cfg0.N) (r : Fin 1536) (l : Fin 512) :
    (iblk m c 1 t : S1536x512.Idx → BitVec 32) (ix2 r l)
      = m ((c : Thread nD τ).loc main_arg1) (pos4 ⟨t.val * 1536 + r.val, row_lt t r⟩ l) := by
  unfold iblk
  rw [View.read_apply]
  show (V m c main_v1 : S55296x512.Idx → BitVec 32) (((cfg0.win 1).blk t).view.emb (ix2 r l)) = _
  have e : ((cfg0.win 1).blk t).view.emb (ix2 r l) = ix2 (⟨t.val * 1536 + r.val, row_lt t r⟩ : Fin 55296) l := by
    funext a
    apply Fin.ext
    obtain ⟨-, -, e0, e1, -, -⟩ := idx_facts t
    match a with
    | ⟨0, _⟩ => show win0_1.index t (0 : Fin 2) * 1536 + 1 * r.val = t.val * 1536 + r.val; rw [e0]; omega
    | ⟨1, _⟩ => show win0_1.index t (1 : Fin 2) * 512 + 1 * l.val = l.val; rw [e1]; omega
  rw [e, labels_eq]
  exact reshape_apply _ _ _

/-- Lane l's column sum of the terms of point t's tiles is the column sum of tile t. -/
theorem tileSum (c : Dev nD) (t : Fin cfg0.N) (l : Fin 512) :
    ∑ r : Fin 1536, kterm ((iblk m c 0 t : S1536x512.Idx → EReal) (ix2 r l)) ((iblk m c 1 t : S1536x512.Idx → BitVec 32) (ix2 r l))
      = colN (cell m c) t.val l := by
  unfold colN
  refine Finset.sum_congr rfl fun r _ => ?_
  unfold cellN
  rw [dif_pos (row_lt t r), probTile_apply m c t r l, labelTile_apply m c t r l]
  rfl

/-- One update of the running row at point t: the row found plus tile t's column sums. -/
theorem step (c : Dev nD) (t : Fin cfg0.N) (acc : Vec Ideal S1x512 .f32) (l : Fin 512) :
    k0_pay3 (iblk m c 0 t) (iblk m c 1 t) acc (ix2 (0 : Fin 1) l) = acc (ix2 (0 : Fin 1) l) + colN (cell m c) t.val l :=
  (row_apply (iblk m c 0 t) (iblk m c 1 t) acc l).trans (congrArg (acc (ix2 (0 : Fin 1) l) + ·) (tileSum m c t l))

/-! ## The scratch row, point by point -/

/-- After point n the scratch row is the running row of the tiled accumulation. -/
theorem scratch_eq (c : Dev nD) : ∀ (n : ℕ) (h : n < cfg0.N) (l : Fin 512),
    (outsAt0 m c n h).2 (ix2 (0 : Fin 1) l) = accN (cell m c) n l
  | 0, h, l => by
    rw [outsAt0_A m c ⟨0, h⟩ rfl (by show ¬(0 : ℕ) % 18 = 17; omega)]
    dsimp only
    refine (congrFun (scratch_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)) (ix2 (0 : Fin 1) l)).trans ?_
    refine (step m c ⟨0, h⟩ _ l).trans ?_
    rw [zeroRow_apply]
    rfl
  | n + 1, h, l => by
    have hN : n + 1 < 36 := lt_of_lt_of_eq h (show cfg0.N = 36 from N_0)
    by_cases h0 : (n + 1) % 18 = 0
    · have h1 : ¬(n + 1) % 18 = 17 := by omega
      rw [outsAt0_A m c ⟨n + 1, h⟩ h0 h1]
      dsimp only
      refine (congrFun (scratch_first (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)) (ix2 (0 : Fin 1) l)).trans ?_
      refine (step m c ⟨n + 1, h⟩ _ l).trans ?_
      rw [zeroRow_apply, accN, if_pos h0]
    · by_cases h1 : (n + 1) % 18 = 17
      · rw [outsAt0_C m c ⟨n + 1, h⟩ h0 h1]
        dsimp only
        refine (congrFun (scratch_last (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩) _) (ix2 (0 : Fin 1) l)).trans ?_
        refine (step m c ⟨n + 1, h⟩ _ l).trans ?_
        rw [accN, if_neg h0]
        show (outsAt0 m c n _).2 (ix2 (0 : Fin 1) l) + _ = _
        rw [scratch_eq c n _ l]
      · rw [outsAt0_B m c ⟨n + 1, h⟩ h0 h1]
        dsimp only
        refine (congrFun (scratch_mid (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩) _) (ix2 (0 : Fin 1) l)).trans ?_
        refine (step m c ⟨n + 1, h⟩ _ l).trans ?_
        rw [accN, if_neg h0]
        show (outsAt0 m c n _).2 (ix2 (0 : Fin 1) l) + _ = _
        rw [scratch_eq c n _ l]

/-! ## The output block at the last tile of a half -/

/-- At the last tile of a half the output block holds the masked lane total of the scratch row just written. -/
theorem block_eq (c : Dev nD) (t : Fin cfg0.N) (h17 : t.val % 18 = 17) :
    (outsAt0 m c t.val t.isLt).1 = k0_pay1 ((outsAt0 m c t.val t.isLt).2) := by
  have h0 : ¬t.val % 18 = 0 := by omega
  rw [outsAt0_C m c t h0 h17]
  dsimp only
  refine (block_last (F := Ideal) c (grid0.coords t) (ms0_0 t) (hs0_0 t) (ms0_1 t) (hs0_1 t) (ms0_2 t) (hs0_2 t) scM0_0
    (Memref.isWhole_whole _) _ _ (iblk m c 0 t) (iblk m c 1 t) _).trans ?_
  exact congrArg k0_pay1 (scratch_last (F := Ideal) c (grid0.coords t) (ms0_0 t) (hs0_0 t) (ms0_1 t) (hs0_1 t) (ms0_2 t) (hs0_2 t) scM0_0
    (Memref.isWhole_whole _) _ _ (iblk m c 0 t) (iblk m c 1 t) _).symm

/-- Entry (a, b) of that block: half t / 18's total at (0, 0), zero elsewhere. -/
theorem block_value (c : Dev nD) (t : Fin cfg0.N) (h17 : t.val % 18 = 17) (a : Fin 8) (b : Fin 128) :
    (outsAt0 m c t.val t.isLt).1 (ix2 a b) = if a.val = 0 ∧ b.val = 0 then halfTotal (cell m c) (t.val / 18) else 0 := by
  rw [block_eq m c t h17, block_apply]
  refine if_congr Iff.rfl ?_ rfl
  unfold halfTotal
  refine Finset.sum_congr rfl fun l _ => ?_
  rw [scratch_eq m c t.val t.isLt l]
  congr 1
  omega

/-! ## The result array -/

/-- The 16 × 128 array of partial results: half h's total at (8h, 0), zero elsewhere. -/
def partials (c : Dev nD) : S16x128.Idx → EReal :=
  fun i => if (i 0).val % 8 = 0 ∧ (i 1).val = 0 then halfTotal (cell m c) ((i 0).val / 8) else 0

/-- What a writing-back point writes back is its block of the array of partial results. -/
theorem flushed_eq (c : Dev nD) (t : Fin cfg0.N) (hf : (cfg0.win 2).flush t = true) :
    (dats m 0 c).flushed 2 t = ((cfg0.win 2).blk t).view.read (Elt Ideal) (partials m c) := by
  have h17 : t.val % 18 = 17 := (flush0_2 t).mp hf
  have hN : t.val < 36 := lt_of_lt_of_eq t.isLt (show cfg0.N = 36 from N_0)
  show (cfg0.win 2).cut (grid0.coords t) ((dats m 0 c).after 2 t) = _
  rw [after0_2]
  funext y
  obtain ⟨a, b, rfl⟩ : ∃ (a : Fin 8) (b : Fin 128), y = ix2 a b := ⟨y 0, y 1, eq_ix2 y⟩
  rw [View.read_apply]
  show (outsAt0 m c t.val t.isLt).1 (ix2 a b) = partials m c (((cfg0.win 2).blk t).view.emb (ix2 a b))
  rw [block_value m c t h17 a b]
  obtain ⟨-, -, -, -, e0, e1⟩ := idx_facts t
  have c0 : ((((cfg0.win 2).blk t).view.emb (ix2 a b)) 0).val = t.val / 18 * 8 + a.val := by
    show win0_2.index t (0 : Fin 2) * 8 + 1 * a.val = _
    rw [e0]; omega
  have c1 : ((((cfg0.win 2).blk t).view.emb (ix2 a b)) 1).val = b.val := by
    show win0_2.index t (1 : Fin 2) * 128 + 1 * b.val = _
    rw [e1]; omega
  unfold partials
  rw [c0, c1]
  have ha := a.isLt
  refine if_congr ⟨fun h => ⟨by omega, h.2⟩, fun h => ⟨by omega, h.2⟩⟩ ?_ rfl
  congr 1
  omega

/-- An index of the array is in point t's block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- The two written-back blocks tile the array: it ends holding the partial results. -/
theorem array_eq (c : Dev nD) : (dats m 0 c).arrAt 2 cfg0.N = partials m c :=
  (dats m 0 c).arrAt_eq_of_cover 2 (partials m c) (flushed_eq m c) fun i => by
    have h0 : (i 0).val < 16 := (i 0).isLt
    have h1 : (i 1).val < 128 := (i 1).isLt
    have hN : cfg0.N = 36 := N_0
    have hlt : 18 * ((i 0).val / 8) + 17 < cfg0.N := by rw [hN]; omega
    refine ⟨⟨18 * ((i 0).val / 8) + 17, hlt⟩, (flush0_2 _).mpr (by show (18 * ((i 0).val / 8) + 17) % 18 = 17; omega), ?_⟩
    rw [mem_blk]
    obtain ⟨-, -, -, -, e0, e1⟩ := idx_facts ⟨18 * ((i 0).val / 8) + 17, hlt⟩
    intro a
    match a with
    | ⟨0, _⟩ =>
      show win0_2.index _ (0 : Fin 2) * 8 ≤ (i 0).val ∧ (i 0).val < win0_2.index _ (0 : Fin 2) * 8 + 8
      rw [e0]
      show (18 * ((i 0).val / 8) + 17) / 18 * 8 ≤ (i 0).val ∧ (i 0).val < (18 * ((i 0).val / 8) + 17) / 18 * 8 + 8
      omega
    | ⟨1, _⟩ =>
      show win0_2.index _ (1 : Fin 2) * 128 ≤ (i 1).val ∧ (i 1).val < win0_2.index _ (1 : Fin 2) * 128 + 128
      rw [e1]
      omega

/-! ## The host's last lines, and the run -/

/-- The entries of the array of partial results add up to the sum of all terms. -/
theorem sum_partials (c : Dev nD) :
    ∑ i : S16x128.Idx, partials m c i = ∑ R : Fin 55296, ∑ l : Fin 512, cell m c R l := by
  rw [sum_idx2, total_eq]
  exact sum_masked (halfTotal (cell m c))

/-- The result after the host's sum and division: the mean of the product-form terms of the arguments. -/
theorem tail_eq (c : Dev nD) :
    Pipeline.afterTail₀ cfgs (dats m) 0 (V0 m) [hostOps1] c main_v4
      = fun _ => meanOf kterm (m ((c : Thread nD τ).loc main_arg0)) (m ((c : Thread nD τ).loc main_arg1)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = partials m c :=
    (Pipeline.withArrays_arr spec0 launch0.win.arr_inj c _ _ 2).trans (array_eq m c)
  rw [hw]
  funext i
  have hsum : Host.reduceAdd (F := Ideal) (partials m c) (constant S_ .f32 0x00000000#32) reducesTo_S16x128_S_d0_1 h_S_ i
      = zero + ∑ j : S16x128.Idx, partials m c j := by
    simp only [Host.reduceAdd, Ideal.hostReduceAdd_def]
    exact Ideal.hostReduceAdd_total reducesTo_S16x128_S_d0_1 (fun b => b.elim0) (partials m c) _ i
  show Ideal.div (Host.reduceAdd (F := Ideal) (partials m c) (constant S_ .f32 0x00000000#32) reducesTo_S16x128_S_d0_1 h_S_ i) cCount = _
  rw [hsum, sum_partials]
  rfl

/-- The run, read: the result at the mean of the product-form terms, the arguments unchanged. -/
theorem run : θ_run defs (onTc (τ := τ) (main (F := Ideal))) ⟨m, fun _ => 0, ρ⟩ fun r => ∀ c : Dev nD,
      r.2.mem ((c : Thread nD τ).loc main_v4)
        = (fun _ => meanOf kterm (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  The precondition, read at one entry: every probability is a real number.

  The precondition tests the float argument by all(|x| < +inf): an "and" over every entry of the elementwise comparison of
  |x| with the f32 pattern of +inf.  The reduction's one bit being 1 makes every compared entry 1, and an extended real
  whose absolute value is below +inf is neither +∞ nor −∞.
-/
import proofs.«177895_j13365938226077_2_alg».proof.Defs
import proofs.«177895_j13365938226077_2_alg».proof.Proof.LibFiniteEntry
import Idealize.ShloMosaic.Lib.ReduceAll
import Idealize.ShloMosaic.Lib.ValueIdx

noncomputable section

open Idealize.ShloMosaic Idealize.ShloMosaic.TcCoe Idealize.SL.Sem

namespace Cert.Finite

open Cert.Pre_finite_inputs Cert.Lib.FiniteEntry

/-- If the finiteness test of the two arguments is 1, every entry of the float argument is a real number. -/
theorem entry_real_of_pre [Cert.Pre_finite_inputs.Facts] (x : FVec Ideal S64x3x288x512 .f32) (y : IVec S64x3x288x512 32)
    (h : Cert.Pre_finite_inputs.fn (F := Ideal) x y = fun _ => 1#1) (i : S64x3x288x512.Idx) : ∃ r : ℝ, x i = (r : EReal) := by
  have h0 := congrFun h ValueIdx.ix0
  dsimp only [Cert.Pre_finite_inputs.fn] at h0
  exact entry_real Facts.bcast_S_S64x3x288x512 x i (Host.reduce_andi_all _ _ _ _ _ h0 i)

end Cert.Finite

end
-- ==== Proof.lean ====
/-
  The certificate of the focal-loss mean: a kernel that accumulates tile column sums per half of the rows against the
  reference's one flat sum.

  Both programs average, over the 64·3·288·512 entries, the weighted term
      w = (1 − pt)² · (−log₁₀ pt) · (α or 1 − α),   pt = p where the label is 1 and 1 − p elsewhere,
  log₁₀ spelt on both sides as the natural logarithm times the same f32 word.  They differ in two places only: the
  kernel squares by a product and negates the logarithm before scaling where the reference raises to the power 2.0 and
  negates afterwards — one extended real wherever p is a real number, which the precondition (every probability finite)
  gives (Proof/Term.lean, Proof/Finite.lean) —, and the kernel groups the sum by halves, tiles, columns and lanes
  (Proof/KValue.lean over Proof/Pieces.lean and Proof/Body.lean) where the reference sums the flat array once
  (Proof/Reference.lean): one number, addition on the extended reals being commutative and associative.
  The three frames are the generated ones; the idealization rewrote nothing, so preserves is trivial.
-/
import proofs.«177895_j13365938226077_2_alg».proof.Defs
import proofs.«177895_j13365938226077_2_alg».proof.Proof.Gen.Kernel
import proofs.«177895_j13365938226077_2_alg».proof.Proof.Gen.Kernel.Skeleton
import proofs.«177895_j13365938226077_2_alg».proof.Proof.Gen.Kernel.Launch
import proofs.«177895_j13365938226077_2_alg».proof.Proof.Gen.Kernel.Points
import proofs.«177895_j13365938226077_2_alg».proof.Proof.Gen.Kernel.Frame
import proofs.«177895_j13365938226077_2_alg».proof.Proof.Gen.KernelIdeal
import proofs.«177895_j13365938226077_2_alg».proof.Proof.Gen.KernelIdeal.Skeleton
import proofs.«177895_j13365938226077_2_alg».proof.Proof.Gen.KernelIdeal.Launch
import proofs.«177895_j13365938226077_2_alg».proof.Proof.Gen.KernelIdeal.Points
import proofs.«177895_j13365938226077_2_alg».proof.Proof.Gen.KernelIdeal.Frame
import proofs.«177895_j13365938226077_2_alg».proof.Proof.Gen.ReferenceIdeal
import proofs.«177895_j13365938226077_2_alg».proof.Proof.Gen.Pre_finite_inputs
import proofs.«177895_j13365938226077_2_alg».proof.Proof.Reference
import proofs.«177895_j13365938226077_2_alg».proof.Proof.KValue
import proofs.«177895_j13365938226077_2_alg».proof.Proof.Finite
import Idealize.ShloMosaic.Adequacy
import Idealize.ShloMosaic.Init

noncomputable section

namespace Cert.Proof

open Idealize.ShloMosaic Idealize.SL.Sem Cert.Focal

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Where every probability is a real number the mean of the product-form terms is the mean of the power-form terms. -/
theorem mean_eq (x0 : (⟨4, ![64, 3, 288, 512]⟩ : Shape).Idx → EReal) (x1 : (⟨4, ![64, 3, 288, 512]⟩ : Shape).Idx → BitVec 32)
    (hx : ∀ i, ∃ r : ℝ, x0 i = (r : EReal)) : meanOf rterm x0 x1 = meanOf kterm x0 x1 := by
  unfold meanOf
  refine congrArg (fun s => Ideal.div (zero + s) cCount) ?_
  refine Finset.sum_congr rfl fun R _ => Finset.sum_congr rfl fun l _ => ?_
  obtain ⟨r, hr⟩ := hx (pos4 R l)
  rw [hr]
  exact (kterm_eq_rterm r _).symm

/-- At the extended reals the kernel's result is the mean of the product-form terms (its run, read), the reference's the
    mean of the power-form terms of arguments that agree: one number under the precondition. -/
theorem algebraic : Cert.algebraic_KernelIdeal_ReferenceIdeal := by
  intro m ρ m' ρ' hpre hagree
  refine ⟨fun c => fun _ => meanOf kterm (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.ReferenceIdeal.RefValue.result_eq, (hagree c).1, (hagree c).2]
  funext _
  exact mean_eq _ _ fun i => Cert.Finite.entry_real_of_pre _ _ (hpre c) i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
